-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x64 : Shape := ⟨3, ![4, 4096, 64]⟩
abbrev S4x4096x4096 : Shape := ⟨3, ![4, 4096, 4096]⟩
abbrev S_ : Shape := ⟨0, ![]⟩
abbrev S4x4096 : Shape := ⟨2, ![4, 4096]⟩

class Facts : Prop where
  bcast_S_S4x4096x64 : S_.BroadcastsInDim S4x4096x64 (![] : Fin 0 → Fin S4x4096x64.rank)
  reducesTo_S4x4096x64_S_d0_1_2 : S4x4096x64.ReducesTo [0, 1, 2] S_
  h_S_ : 0 < S_.numel
  bcast_S_S4x4096x4096 : S_.BroadcastsInDim S4x4096x4096 (![] : Fin 0 → Fin S4x4096x4096.rank)
  reducesTo_S4x4096x4096_S_d0_1_2 : S4x4096x4096.ReducesTo [0, 1, 2] S_
  reducesTo_S4x4096x4096_S4x4096_d2 : S4x4096x4096.ReducesTo [2] S4x4096
  bcast_S_S4x4096 : S_.BroadcastsInDim S4x4096 (![] : Fin 0 → Fin S4x4096.rank)
  reducesTo_S4x4096_S_d0_1 : S4x4096.ReducesTo [0, 1] S_

variable [Facts]

def fn {F : FTy → Type} [FloatOps F] (main_arg0 : FVec F S4x4096x64 .f32) (main_arg1 : FVec F S4x4096x4096 .f32) : IVec S_ 1 :=
  let main_v0 : FVec F S4x4096x64 .f32 := Host.absf main_arg0
  let main_cst : FVec F S_ .f32 := constant S_ .f32 0x7F800000#32
  let main_v1 : FVec F S4x4096x64 .f32 := broadcastInDim S4x4096x64 ![] bcast_S_S4x4096x64 main_cst
  let main_v2 : IVec S4x4096x64 1 := cmpf .olt main_v0 main_v1
  let main_c : IVec S_ 1 := constantI S_ 1 1#1
  let main_v3 : IVec S_ 1 := (fun x v => Host.reduce IntOp.andi x v reducesTo_S4x4096x64_S_d0_1_2 h_S_) main_v2 main_c
  let main_v4 : FVec F S4x4096x4096 .f32 := Host.absf main_arg1
  let main_cst_0 : FVec F S_ .f32 := constant S_ .f32 0x7F800000#32
  let main_v5 : FVec F S4x4096x4096 .f32 := broadcastInDim S4x4096x4096 ![] bcast_S_S4x4096x4096 main_cst_0
  let main_v6 : IVec S4x4096x4096 1 := cmpf .olt main_v4 main_v5
  let main_c_1 : IVec S_ 1 := constantI S_ 1 1#1
  let main_v7 : IVec S_ 1 := (fun x v => Host.reduce IntOp.andi x v reducesTo_S4x4096x4096_S_d0_1_2 h_S_) main_v6 main_c_1
  let main_v8 : IVec S_ 1 := andi main_v3 main_v7
  let main_cst_2 : FVec F S_ .f32 := constant S_ .f32 0x358637BD#32
  let main_v9 : FVec F S4x4096x4096 .f32 := broadcastInDim S4x4096x4096 ![] bcast_S_S4x4096x4096 main_cst_2
  let main_v10 : FVec F S4x4096x4096 .f32 := addf main_arg1 main_v9
  let main_cst_3 : FVec F S_ .f32 := constant S_ .f32 0x00000000#32
  let main_v11 : FVec F S4x4096 .f32 := (fun x v => Host.reduceAdd x v reducesTo_S4x4096x4096_S4x4096_d2 h_S_) main_v10 main_cst_3
  let main_cst_4 : FVec F S_ .f32 := constant S_ .f32 0x00000000#32
  let main_v12 : FVec F S4x4096 .f32 := broadcastInDim S4x4096 ![] bcast_S_S4x4096 main_cst_4
  let main_v13 : IVec S4x4096 1 := cmpf .une main_v11 main_v12
  let main_c_5 : IVec S_ 1 := constantI S_ 1 1#1
  let main_v14 : IVec S_ 1 := (fun x v => Host.reduce IntOp.andi x v reducesTo_S4x4096_S_d0_1 h_S_) main_v13 main_c_5
  let main_v15 : IVec S_ 1 := andi main_v8 main_v14
  main_v15
-- ==== Kernel.lean ====
abbrev S4x4096x64 : Shape := ⟨3, ![4, 4096, 64]⟩
abbrev S4x4096x4096 : Shape := ⟨3, ![4, 4096, 4096]⟩
abbrev S1x1024x4096 : Shape := ⟨3, ![1, 1024, 4096]⟩
abbrev S1x4096x64 : Shape := ⟨3, ![1, 4096, 64]⟩
abbrev S1x1024x64 : Shape := ⟨3, ![1, 1024, 64]⟩
abbrev S1024x4096 : Shape := ⟨2, ![1024, 4096]⟩
abbrev S4096x64 : Shape := ⟨2, ![4096, 64]⟩
abbrev S1024 : Shape := ⟨1, ![1024]⟩
abbrev S1024x1 : Shape := ⟨2, ![1024, 1]⟩
abbrev S64 : Shape := ⟨1, ![64]⟩
abbrev S1x64 : Shape := ⟨2, ![1, 64]⟩
abbrev S1024x64 : Shape := ⟨2, ![1024, 64]⟩

abbrev nBuf : Space → Nat
  | .hbm => 3
  | .vmem => 6
  | .smem => 0
  | _ => 0

abbrev bufTy : (tb : Table) → Fin (tcTables nBuf tb) → BufTy
  | .hbm, ⟨0, _⟩ => ⟨S4x4096x64, .f32⟩
  | .hbm, ⟨1, _⟩ => ⟨S4x4096x4096, .f32⟩
  | .hbm, ⟨2, _⟩ => ⟨S4x4096x64, .f32⟩
  | .local _ .vmem, ⟨0, _⟩ => ⟨S1x1024x4096, .f32⟩
  | .local _ .vmem, ⟨1, _⟩ => ⟨S1x1024x4096, .f32⟩
  | .local _ .vmem, ⟨2, _⟩ => ⟨S1x4096x64, .f32⟩
  | .local _ .vmem, ⟨3, _⟩ => ⟨S1x4096x64, .f32⟩
  | .local _ .vmem, ⟨4, _⟩ => ⟨S1x1024x64, .f32⟩
  | .local _ .vmem, ⟨5, _⟩ => ⟨S1x1024x64, .f32⟩
  | _, _ => ⟨S4x4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S1x1024x4096_S1x1024x4096_0_0_0 : ∀ a, (![0, 0, 0] : Fin 3 → Nat) a + S1x1024x4096.size a ≤ S1x1024x4096.size a
  h_S1x1024x4096 : 0 < S1x1024x4096.numel
  shapeCasts_S1x1024x4096_S1024x4096 : S1x1024x4096.ShapeCasts S1024x4096
  inb_S1x4096x64_S1x4096x64_0_0_0 : ∀ a, (![0, 0, 0] : Fin 3 → Nat) a + S1x4096x64.size a ≤ S1x4096x64.size a
  h_S1x4096x64 : 0 < S1x4096x64.numel
  shapeCasts_S1x4096x64_S4096x64 : S1x4096x64.ShapeCasts S4096x64
  reduces_S1024x4096_S1024 : S1024x4096.Reduces [1] S1024
  shapeCasts_S1024_S1024x1 : S1024.ShapeCasts S1024x1
  reduces_S4096x64_S64 : S4096x64.Reduces [0] S64
  shapeCasts_S64_S1x64 : S64.ShapeCasts S1x64
  broadcasts_S1x64_S1024x64 : S1x64.Broadcasts S1024x64
  broadcasts_S1024x1_S1024x64 : S1024x1.Broadcasts S1024x64
  inb_S1x1024x64_S1x1024x64_0_0_0 : ∀ a, (![0, 0, 0] : Fin 3 → Nat) a + S1x1024x64.size a ≤ S1x1024x64.size a
  h_S1x1024x64 : 0 < S1x1024x64.numel
  shapeCasts_S1x1024x64_S1024x64 : S1x1024x64.ShapeCasts S1024x64
  shapeCasts_S1024x64_S1x1024x64 : S1024x64.ShapeCasts S1x1024x64
  dot_S1024x4096_S4096x64_S1024x64_1_0_0_1_n_n_wf : DotDims.WF S1024x4096 S4096x64 S1024x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x4096.size a ≤ S4x4096x4096.size a
  hwx0_0 : ∀ i : grid0.Coords, EltTy.bits .f32 = 32 ∨ (Rect.block (s := S4x4096x4096) S1x1024x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4096x64.size a ≤ S4x4096x64.size a
  hwx0_1 : ∀ i : grid0.Coords, EltTy.bits .f32 = 32 ∨ (Rect.block (s := S4x4096x64) S1x4096x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x64.size a ≤ S4x4096x64.size a
  hwx0_2 : ∀ i : grid0.Coords, EltTy.bits .f32 = 32 ∨ (Rect.block (s := S4x4096x64) S1x1024x64.size (cc0_transform_2 i) (hinb0_2 i)).WholeWords (EltTy.packing .f32)

variable [Facts₀]

def dot_S1024x4096_S4096x64_S1024x64_1_0_0_1_n_n : DotDims S1024x4096 S4096x64 S1024x64 where
  lhsContracting := [1]
  rhsContracting := [0]
  lhsNonContracting := [0]
  rhsNonContracting := [1]
  lhsBatch := []
  rhsBatch := []
  wf := dot_S1024x4096_S4096x64_S1024x64_1_0_0_1_n_n_wf

abbrev win0_0 : Pipeline.Window sig grid0 :=
  Pipeline.Window.ofSpec (Memref.whole main_arg1) S1x1024x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x4096x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1024x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x4096x64 : Shape := ⟨3, ![4, 4096, 64]⟩
abbrev S4x4096x4096 : Shape := ⟨3, ![4, 4096, 4096]⟩
abbrev S_ : Shape := ⟨0, ![]⟩
abbrev S4x4096 : Shape := ⟨2, ![4, 4096]⟩
abbrev S4x4096x1 : Shape := ⟨3, ![4, 4096, 1]⟩

abbrev nBuf : Space → Nat
  | .hbm => 11
  | .vmem => 0
  | .smem => 0
  | _ => 0

abbrev bufTy : (tb : Table) → Fin (tcTables nBuf tb) → BufTy
  | .hbm, ⟨0, _⟩ => ⟨S4x4096x64, .f32⟩
  | .hbm, ⟨1, _⟩ => ⟨S4x4096x4096, .f32⟩
  | .hbm, ⟨2, _⟩ => ⟨S_, .f32⟩
  | .hbm, ⟨3, _⟩ => ⟨S4x4096x4096, .f32⟩
  | .hbm, ⟨4, _⟩ => ⟨S4x4096x4096, .f32⟩
  | .hbm, ⟨5, _⟩ => ⟨S_, .f32⟩
  | .hbm, ⟨6, _⟩ => ⟨S4x4096, .f32⟩
  | .hbm, ⟨7, _⟩ => ⟨S4x4096x1, .f32⟩
  | .hbm, ⟨8, _⟩ => ⟨S4x4096x4096, .f32⟩
  | .hbm, ⟨9, _⟩ => ⟨S4x4096x4096, .f32⟩
  | .hbm, ⟨10, _⟩ => ⟨S4x4096x64, .f32⟩
  | _, _ => ⟨S4x4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]

class Facts₀ : Prop where
  bcast_S_S4x4096x4096 : S_.BroadcastsInDim S4x4096x4096 (![] : Fin 0 → Fin S4x4096x4096.rank)
  reducesTo_S4x4096x4096_S4x4096_d2 : S4x4096x4096.ReducesTo [2] S4x4096
  h_S_ : 0 < S_.numel
  bcast_S4x4096_S4x4096x1_0_1 : S4x4096.BroadcastsInDim S4x4096x1 (![0, 1] : Fin 2 → Fin S4x4096x1.rank)
  bcast_S4x4096x1_S4x4096x4096_0_1_2 : S4x4096x1.BroadcastsInDim S4x4096x4096 (![0, 1, 2] : Fin 3 → Fin S4x4096x4096.rank)
  dot_S4x4096x4096_S4x4096x64_S4x4096x64_2_1_1_2_0_0_wf : DotDims.WF S4x4096x4096 S4x4096x64 S4x4096x64 [2] [1] [1] [2] [0] [0]

variable [Facts₀]

def dot_S4x4096x4096_S4x4096x64_S4x4096x64_2_1_1_2_0_0 : DotDims S4x4096x4096 S4x4096x64 S4x4096x64 where
  lhsContracting := [2]
  rhsContracting := [1]
  lhsNonContracting := [1]
  rhsNonContracting := [2]
  lhsBatch := [0]
  rhsBatch := [0]
  wf := dot_S4x4096x4096_S4x4096x64_S4x4096x64_2_1_1_2_0_0_wf

class Facts : Prop extends Facts₀ where

variable [Facts]
-- ==== Proof.Layout.lean ====
/-
  Small reading lemmas for the kernel's body, at the extended reals: a vector turned into a column and a column spread
  over the columns of a matrix (the "keep the reduced axis" forms of a row sum), and a matrix summed along its rows or
  along its columns, each read at an index written by its coordinates.
-/
import Idealize.ShloMosaic.Lib.ValueIdx
import Idealize.ShloMosaic.Lib.ValueLayout
import Idealize.ShloMosaic.Lib.Pipeline.Value
import Idealize.ShloMosaic.PureOps.Ideal.Laws

noncomputable section

namespace Cert.Assoc

open Idealize.ShloMosaic Idealize.ShloMosaic.ValueIdx

variable {α : Type}

/-- A vector of length a turned into an a × 1 column: entry (i, 0) is entry i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An a × 1 column spread over b columns: entry (p, c) is the column's entry (p, 0). -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum of an a × b matrix along each row (its second axis), at row r: the sum over the b columns. -/
theorem rowSum_apply {a b : ℕ} (src : FVec Ideal ⟨2, ![a, b]⟩ .f32) (h : (⟨2, ![a, b]⟩ : Shape).Reduces [1] ⟨1, ![a]⟩)
    (hφ : FKind.Formats .f32) (hacc : (0x00000000#32 : BitVec 32) = 0x00000000#32) (r : Fin a) :
    multiReduction .add [1] ⟨1, ![a]⟩ src 0x00000000#32 h hφ hacc (ix1 r) = ∑ k : Fin b, src (ix2 r k) := by
  refine (Ideal.multiReduction_add_single src 0x00000000#32 h hφ hacc (ix1 r)).trans ?_
  show ∑ k : Fin b, src (h.lift (ix1 r) k) = ∑ k : Fin b, src (ix2 r k)
  exact Finset.sum_congr rfl fun k _ => congrArg src (funext fun ax => Fin.ext (by
    match ax with
    | ⟨0, _⟩ => rfl
    | ⟨1, _⟩ => rfl))

/-- The sum of an a × b matrix along each column (its first axis), at column c: the sum over the a rows. -/
theorem colSum_apply {a b : ℕ} (src : FVec Ideal ⟨2, ![a, b]⟩ .f32) (h : (⟨2, ![a, b]⟩ : Shape).Reduces [0] ⟨1, ![b]⟩)
    (hφ : FKind.Formats .f32) (hacc : (0x00000000#32 : BitVec 32) = 0x00000000#32) (c : Fin b) :
    multiReduction .add [0] ⟨1, ![b]⟩ src 0x00000000#32 h hφ hacc (ix1 c) = ∑ k : Fin a, src (ix2 k c) := by
  refine (Ideal.multiReduction_add_single src 0x00000000#32 h hφ hacc (ix1 c)).trans ?_
  show ∑ k : Fin a, src (h.lift (ix1 c) k) = ∑ k : Fin a, src (ix2 k c)
  exact Finset.sum_congr rfl fun k _ => congrArg src (funext fun ax => Fin.ext (by
    match ax with
    | ⟨0, _⟩ => rfl
    | ⟨1, _⟩ => rfl))

end Cert.Assoc

end
-- ==== Proof.Consts.lean ====
/-
  The two float literals of the normalisation, as the extended reals their words denote.

  The reference adds the word 0x358637BD (the single-precision number nearest 10⁻⁶) to every weight; written exactly it is
  8796093 · 2⁻⁴³.  The kernel adds the word 0x3B8637BD to a row's sum once: the same significand twelve binades higher,
  8796093 · 2⁻³¹, that is 4096 times the first — the first added once for each of the 4096 weights of a row.
-/
import Idealize.ShloMosaic.PureOps.Ideal

noncomputable section

namespace Cert.Assoc

open Idealize.ShloMosaic

/-- The real number the small literal denotes. -/
def epsR : ℝ := 8796093 * (2 : ℝ) ^ (-43 : ℤ)

/-- The real number the row literal denotes. -/
def rowEpsR : ℝ := 8796093 * (2 : ℝ) ^ (-31 : ℤ)

/-- The row literal is the small one taken 4096 times. -/
theorem rowEpsR_eq : rowEpsR = (4096 : ℕ) * epsR := by
  unfold rowEpsR epsR
  norm_num

theorem ofBits_eps : Ideal.ofBits .f32 0x358637BD#32 = ((epsR : ℝ) : EReal) := by
  unfold epsR
  simp [Ideal.ofBits, Ideal.ieee, -EReal.coe_mul]

theorem ofBits_rowEps : Ideal.ofBits .f32 0x3B8637BD#32 = ((rowEpsR : ℝ) : EReal) := by
  unfold rowEpsR
  simp [Ideal.ofBits, Ideal.ieee, -EReal.coe_mul]

end Cert.Assoc

end
-- ==== Proof.Law.lean ====
/-
  The one algebraic law that joins the two programs, over the reals.

  For real weights a₁ … aₙ, real features f₁ … fₙ and a real ε, put s = Σₖ (aₖ + ε).  When s ≠ 0, normalising each
  weight first and then taking the weighted sum of the features,
      Σₖ ((aₖ + ε) / s) · fₖ ,
  equals taking the weighted sum first and dividing once,
      (Σₖ aₖ · fₖ + ε · Σₖ fₖ) / (Σₖ aₖ + n · ε) ,
  because s = Σₖ aₖ + n · ε and (aₖ + ε) · fₖ = aₖ · fₖ + ε · fₖ.  On the extended reals the division is the one of the
  float semantics, which for a nonzero real divisor is the product with its reciprocal; everything else is a real.
-/
import Idealize.ShloMosaic.PureOps.Ideal

noncomputable section

namespace Cert.Assoc

open Idealize.ShloMosaic

/-- The coercion of the reals into the extended reals commutes with a finite sum. -/
theorem coe_sum {ι : Type} (s : Finset ι) (g : ι → ℝ) : ((∑ k ∈ s, g k : ℝ) : EReal) = ∑ k ∈ s, (g k : EReal) := by
  classical
  refine Finset.induction_on s ?_ ?_
  · simp
  · intro a s ha ih
    rw [Finset.sum_insert ha, Finset.sum_insert ha, EReal.coe_add, ih]

/-- Normalise-then-weigh equals weigh-then-divide, when the divisor is not zero. -/
theorem normalize_then_weigh {n : ℕ} (a f : Fin n → ℝ) (e c : ℝ) (hc : c = (n : ℝ) * e)
    (hs : (∑ k : Fin n, (a k + e)) ≠ 0) :
    ∑ k : Fin n, Ideal.div ((a k : EReal) + (e : EReal)) (0 + ∑ k' : Fin n, ((a k' : EReal) + (e : EReal))) * (f k : EReal)
      = Ideal.div ((∑ k : Fin n, (a k : EReal) * (f k : EReal)) + (e : EReal) * ∑ k : Fin n, (f k : EReal))
          ((∑ k : Fin n, (a k : EReal)) + (c : EReal)) := by
  have h1 : (0 : EReal) + ∑ k' : Fin n, ((a k' : EReal) + (e : EReal)) = ((∑ k : Fin n, (a k + e) : ℝ) : EReal) := by
    rw [zero_add, coe_sum]
    exact Finset.sum_congr rfl fun k _ => (EReal.coe_add _ _).symm
  have h2 : (∑ k : Fin n, (a k : EReal)) + (c : EReal) = ((∑ k : Fin n, (a k + e) : ℝ) : EReal) := by
    rw [← coe_sum, ← EReal.coe_add]
    congr 1
    rw [Finset.sum_add_distrib, Finset.sum_const, Finset.card_univ, Fintype.card_fin, nsmul_eq_mul, hc]
  rw [h1, h2]
  simp only [Ideal.div_coe hs]
  have hl : ∀ k : Fin n, ((a k : EReal) + (e : EReal)) * ((1 / ∑ k : Fin n, (a k + e) : ℝ) : EReal) * (f k : EReal)
      = (((a k + e) * (1 / ∑ k : Fin n, (a k + e)) * f k : ℝ) : EReal) := by
    intro k
    rw [EReal.coe_mul, EReal.coe_mul, EReal.coe_add]
  rw [Finset.sum_congr rfl fun k _ => hl k, ← coe_sum]
  have hr : (∑ k : Fin n, (a k : EReal) * (f k : EReal)) + (e : EReal) * ∑ k : Fin n, (f k : EReal)
      = (((∑ k : Fin n, a k * f k) + e * ∑ k : Fin n, f k : ℝ) : EReal) := by
    rw [EReal.coe_add, EReal.coe_mul, coe_sum, coe_sum]
    exact congrArg (· + _) (Finset.sum_congr rfl fun k _ => (EReal.coe_mul _ _).symm)
  rw [hr, ← EReal.coe_mul]
  congr 1
  rw [Finset.mul_sum, ← Finset.sum_add_distrib, Finset.sum_mul]
  exact Finset.sum_congr rfl fun k _ => by ring

end Cert.Assoc

end
-- ==== Proof.Spec.lean ====
/-
  What both programs compute, as functions of the two argument arrays, index by index.

  Write a[b, m, n] for the weights (4 × 4096 × 4096), f[b, n, d] for the features (4 × 4096 × 64), ε for the small literal
  and ε₄₀₉₆ for the row literal.  The reference normalises every weight of a row by the row's sum of a + ε and then sums the
  normalised weights against the features; the kernel sums the raw weights against the features, adds ε times the column
  sum of the features, and divides once by the row's raw sum plus ε₄₀₉₆.  Under the precondition — every entry a real,
  every row's divisor nonzero — the two agree (the law of the sibling module, at n = 4096).
-/
import Idealize.ShloMosaic.Lib.ValueIdx
import proofs.«136733_j53291954209361_2_alg».proof.Proof.Consts
import proofs.«136733_j53291954209361_2_alg».proof.Proof.Law

noncomputable section

namespace Cert.Assoc

open Idealize.ShloMosaic Idealize.ShloMosaic.ValueIdx

/-- The features' shape. -/
abbrev SF : Shape := ⟨3, ![4, 4096, 64]⟩
/-- The weights' shape. -/
abbrev SA : Shape := ⟨3, ![4, 4096, 4096]⟩

/-- The small literal at the extended reals. -/
abbrev eps : EReal := Ideal.ofBits .f32 0x358637BD#32
/-- The row literal at the extended reals. -/
abbrev rowEps : EReal := Ideal.ofBits .f32 0x3B8637BD#32

theorem eps_eq : eps = ((epsR : ℝ) : EReal) := ofBits_eps
theorem rowEps_eq : rowEps = ((rowEpsR : ℝ) : EReal) := ofBits_rowEps

/-- The reference's divisor of row (b, m): the sum over n of a[b, m, n] + ε. -/
def rowDivisor (assoc : SA.Idx → EReal) (b : Fin 4) (m : Fin 4096) : EReal :=
  0 + ∑ k : Fin 4096, (assoc (ix3 b m k) + eps)

/-- The reference's result at (b, m, d): normalise each weight, then weigh the features. -/
def refForm (feat : SF.Idx → EReal) (assoc : SA.Idx → EReal) (b : Fin 4) (m : Fin 4096) (d : Fin 64) : EReal :=
  ∑ k : Fin 4096, Ideal.div (assoc (ix3 b m k) + eps) (rowDivisor assoc b m) * feat (ix3 b k d)

/-- The kernel's result at (b, m, d): weigh the features by the raw weights, correct by ε times the features' column sum,
    divide once. -/
def kerForm (feat : SF.Idx → EReal) (assoc : SA.Idx → EReal) (b : Fin 4) (m : Fin 4096) (d : Fin 64) : EReal :=
  Ideal.div ((∑ k : Fin 4096, assoc (ix3 b m k) * feat (ix3 b k d)) + eps * ∑ k : Fin 4096, feat (ix3 b k d))
    ((∑ k : Fin 4096, assoc (ix3 b m k)) + rowEps)

/-- The kernel's result as a whole array. -/
def kerArr (feat : SF.Idx → EReal) (assoc : SA.Idx → EReal) : SF.Idx → EReal :=
  fun i => kerForm feat assoc ⟨(i 0).val, (i 0).isLt⟩ ⟨(i 1).val, (i 1).isLt⟩ ⟨(i 2).val, (i 2).isLt⟩

/-- The reference's result as a whole array. -/
def refArr (feat : SF.Idx → EReal) (assoc : SA.Idx → EReal) : SF.Idx → EReal :=
  fun i => refForm feat assoc ⟨(i 0).val, (i 0).isLt⟩ ⟨(i 1).val, (i 1).isLt⟩ ⟨(i 2).val, (i 2).isLt⟩

/-- Where every entry of both arrays is a real and the row's divisor is not zero, the two forms agree. -/
theorem refForm_eq_kerForm (feat : SF.Idx → EReal) (assoc : SA.Idx → EReal)
    (hF : ∀ i, ∃ r : ℝ, feat i = (r : EReal)) (hA : ∀ i, ∃ r : ℝ, assoc i = (r : EReal))
    (b : Fin 4) (m : Fin 4096) (d : Fin 64) (hs : rowDivisor assoc b m ≠ 0) :
    refForm feat assoc b m d = kerForm feat assoc b m d := by
  choose F hF using hF
  choose A hA using hA
  have hdiv : rowDivisor assoc b m = ((∑ k : Fin 4096, (A (ix3 b m k) + epsR) : ℝ) : EReal) := by
    unfold rowDivisor
    rw [zero_add, coe_sum]
    exact Finset.sum_congr rfl fun k _ => by rw [hA, eps_eq, EReal.coe_add]
  have hs' : (∑ k : Fin 4096, (A (ix3 b m k) + epsR)) ≠ 0 := by
    intro h
    exact hs (by rw [hdiv, h]; rfl)
  have law := normalize_then_weigh (n := 4096) (fun k => A (ix3 b m k)) (fun k => F (ix3 b k d)) epsR rowEpsR
    (by rw [rowEpsR_eq]) hs'
  unfold refForm kerForm rowDivisor
  simp only [hA, hF]
  rw [eps_eq, rowEps_eq]
  exact law

/-- So the two whole arrays agree when every entry is a real and every row's divisor is not zero. -/
theorem refArr_eq_kerArr (feat : SF.Idx → EReal) (assoc : SA.Idx → EReal)
    (hF : ∀ i, ∃ r : ℝ, feat i = (r : EReal)) (hA : ∀ i, ∃ r : ℝ, assoc i = (r : EReal))
    (hs : ∀ (b : Fin 4) (m : Fin 4096), rowDivisor assoc b m ≠ 0) :
    refArr feat assoc = kerArr feat assoc :=
  funext fun _ => refForm_eq_kerForm feat assoc hF hA _ _ _ (hs _ _)

end Cert.Assoc

end
-- ==== Proof.KerPayload.lean ====
/-
  The kernel body's arithmetic, read at one entry of its output block.

  The body holds one 1024 × 4096 block A of weights and one 4096 × 64 block X of features.  Entry (p, d) of what it stores is
      ( Σₖ A[p, k] · X[k, d]  +  ε · Σₖ X[k, d] )  /  ( Σₖ A[p, k]  +  ε₄₀₉₆ ) :
  the matrix product into a zero accumulator is the plain sum of products, the column sum of X is taken once and spread
  over the rows, the row sum of A is kept as a column and spread over the columns, and the quotient is taken entry by entry.
-/
import proofs.«136733_j53291954209361_2_alg».proof.Proof.Gen.KernelIdeal.Skeleton
import proofs.«136733_j53291954209361_2_alg».proof.Proof.Layout
import proofs.«136733_j53291954209361_2_alg».proof.Proof.Spec

noncomputable section

namespace Cert.Assoc

open Idealize.ShloMosaic Idealize.ShloMosaic.ValueIdx Cert.KernelIdeal Cert.KernelIdeal.Gen

/-- The block product's contraction record. -/
abbrev blockDot : DotDims S1024x4096 S4096x64 S1024x64 := dot_S1024x4096_S4096x64_S1024x64_1_0_0_1_n_n

theorem blockDot_lhs0 (j : S1024x64.Idx) (q : blockDot.contr.Idx) : (blockDot.lhsIdx j q 0).val = (j 0).val := by
  unfold DotDims.lhsIdx
  rw [dif_neg (show ¬(0 : Fin S1024x4096.rank) ∈ blockDot.lhsBatch by decide),
    dif_pos (show (0 : Fin S1024x4096.rank) ∈ blockDot.lhsNonContracting by decide)]
  rfl

theorem blockDot_lhs1 (j : S1024x64.Idx) (q : blockDot.contr.Idx) :
    (blockDot.lhsIdx j q 1).val = (q ⟨0, by decide⟩).val :=
  blockDot.lhsIdx_val_of_single rfl j q

theorem blockDot_rhs0 (j : S1024x64.Idx) (q : blockDot.contr.Idx) :
    (blockDot.rhsIdx j q 0).val = (q ⟨0, by decide⟩).val :=
  blockDot.rhsIdx_val_of_single rfl j q

theorem blockDot_rhs1 (j : S1024x64.Idx) (q : blockDot.contr.Idx) : (blockDot.rhsIdx j q 1).val = (j 1).val := by
  unfold DotDims.rhsIdx
  rw [dif_neg (show ¬(1 : Fin S4096x64.rank) ∈ blockDot.rhsBatch by decide),
    dif_pos (show (1 : Fin S4096x64.rank) ∈ blockDot.rhsNonContracting by decide)]
  rfl

/-- The block product into a zero accumulator, at (p, d): the sum over k of A[p, k] · X[k, d]. -/
theorem blockProduct_apply (l : FVec Ideal S1024x4096 .f32) (r : FVec Ideal S4096x64 .f32) (p : Fin 1024) (d : Fin 64) :
    matmul blockDot none l r (constant (F := Ideal) S1024x64 .f32 0x00000000#32) (ix2 p d)
      = ∑ k : Fin 4096, l (ix2 p k) * r (ix2 k d) := by
  refine (Ideal.matmul_constant_zero_apply blockDot none l r (ix2 p d)).trans ?_
  rw [← Equiv.sum_comp (ValueIdx.contrEquiv1 blockDot 4096 rfl rfl).symm]
  refine Finset.sum_congr rfl fun k _ => ?_
  have hk := ValueIdx.contrEquiv1_symm_val blockDot 4096 rfl rfl k
  have el : blockDot.lhsIdx (ix2 p d) ((ValueIdx.contrEquiv1 blockDot 4096 rfl rfl).symm k) = ix2 p k :=
    funext fun a => Fin.ext (by
      match a with
      | ⟨0, _⟩ => exact blockDot_lhs0 _ _
      | ⟨1, _⟩ => exact (blockDot_lhs1 _ _).trans hk)
  have er : blockDot.rhsIdx (ix2 p d) ((ValueIdx.contrEquiv1 blockDot 4096 rfl rfl).symm k) = ix2 k d :=
    funext fun a => Fin.ext (by
      match a with
      | ⟨0, _⟩ => exact (blockDot_rhs0 _ _).trans hk
      | ⟨1, _⟩ => exact blockDot_rhs1 _ _)
  rw [el, er]

/-- The body's stored value at entry (0, p, d) of its 1 × 1024 × 64 block, from the two loaded blocks. -/
theorem payload_apply (v0 : Vec Ideal S1x1024x4096 .f32) (v2 : Vec Ideal S1x4096x64 .f32) (p : Fin 1024) (d : Fin 64) :
    k0_pay1 (F := Ideal) v0 v2 (ix3 (0 : Fin 1) p d)
      = Ideal.div ((∑ k : Fin 4096, v0 (ix3 (0 : Fin 1) p k) * v2 (ix3 (0 : Fin 1) k d))
            + eps * ∑ k : Fin 4096, v2 (ix3 (0 : Fin 1) k d))
          ((∑ k : Fin 4096, v0 (ix3 (0 : Fin 1) p k)) + rowEps) := by
  unfold k0_pay1
  dsimp only
  rw [shapeCast_ab_1ab_apply, divf_apply, addf_apply, blockProduct_apply, broadcastTo_1b_ab_apply, mulf_apply,
    broadcast_apply, shapeCast_a_1a_apply, colSum_apply, broadcastTo_a1_ab_apply, addf_apply, shapeCast_a_a1_apply,
    rowSum_apply, broadcast_apply]
  simp only [shapeCast_1ab_ab_apply]
  rfl

end Cert.Assoc

end
-- ==== Proof.Blocks.lean ====
/-
  From the kernel's blocks to its whole output array.

  The grid has 4 × 4 points (b, i).  At point (b, i) the body holds rows 1024·i … 1024·i + 1023 of batch b's weights and
  all of batch b's features, and writes back rows 1024·i … 1024·i + 1023 of batch b's output.  What it writes back is the
  restriction to that block of ONE function of the two argument arrays (the weigh-then-divide form), because every sum
  the body takes runs over a whole axis that the block holds whole.  The sixteen blocks tile the 4 × 4096 × 64 output,
  so after the run the output array is that function.
-/
import proofs.«136733_j53291954209361_2_alg».proof.Proof.Gen.KernelIdeal.Value
import proofs.«136733_j53291954209361_2_alg».proof.Proof.KerPayload

noncomputable section

namespace Cert.Assoc

open Cert.KernelIdeal Cert.KernelIdeal.Gen Idealize.ShloMosaic Idealize.ShloMosaic.TcCoe Idealize.SL.Sem
open Idealize.ShloMosaic.ValueIdx
open Idealize.ShloMosaic.Pipeline (Dat)

/-- One block's stored value, entry by entry, when the two held blocks are the stated parts of whole arrays: rows
    1024·ib … of batch bb of the weights, and batch bb of the features. -/
theorem block_value (X0 : Vec Ideal S1x1024x4096 .f32) (X1 : Vec Ideal S1x4096x64 .f32)
    (feat : SF.Idx → EReal) (assoc : SA.Idx → EReal) (bb : Fin 4) (ib : Fin 4)
    (h0 : ∀ (p : Fin 1024) (k : Fin 4096),
      X0 (ix3 (0 : Fin 1) p k) = assoc (ix3 bb ⟨ib.val * 1024 + p.val, by have := p.isLt; have := ib.isLt; omega⟩ k))
    (h1 : ∀ (k : Fin 4096) (d : Fin 64), X1 (ix3 (0 : Fin 1) k d) = feat (ix3 bb k d))
    (u : Fin 1) (p : Fin 1024) (d : Fin 64) :
    k0_pay1 (F := Ideal) X0 X1 (ix3 u p d)
      = kerForm feat assoc bb ⟨ib.val * 1024 + p.val, by have := p.isLt; have := ib.isLt; omega⟩ d := by
  have hu : u = 0 := Subsingleton.elim _ _
  subst hu
  rw [payload_apply]
  unfold kerForm
  simp only [h0, h1]

variable (m : (ℓ : Loc nD τ sig) → Buf (Elt Ideal) ℓ) (ρ : Dev nD → PrngReg)

theorem zero_offsets : (![0, 0, 0] : Fin 3 → Nat) = fun _ => 0 := funext fun a => by fin_cases a <;> rfl

/-- The printed index maps over the sixteen grid points: the weights' block moves with the output's on the batch and row
    axes and holds the whole last axis; the features' block moves with the batch only; the output's block indices stay
    in range. -/
theorem index_facts : ∀ t : Fin cfg0.N, win0_0.index t (0 : Fin 3) = win0_2.index t (0 : Fin 3)
    ∧ win0_0.index t (1 : Fin 3) = win0_2.index t (1 : Fin 3)
    ∧ win0_0.index t (2 : Fin 3) = 0
    ∧ win0_1.index t (0 : Fin 3) = win0_2.index t (0 : Fin 3)
    ∧ win0_1.index t (1 : Fin 3) = 0
    ∧ win0_1.index t (2 : Fin 3) = 0
    ∧ win0_2.index t (2 : Fin 3) = 0
    ∧ win0_2.index t (0 : Fin 3) ≤ 3 ∧ win0_2.index t (1 : Fin 3) ≤ 3 :=
  (by decide +kernel : ∀ t : Fin grid0.N, _)

/-- Every (batch, row block) pair is some grid point's. -/
theorem index_onto : ∀ (q0 : Fin 4) (q1 : Fin 4), ∃ t : Fin cfg0.N, win0_2.index t = ![q0.val, q1.val, 0] :=
  (by decide +kernel : ∀ (q0 : Fin 4) (q1 : Fin 4), ∃ t : Fin grid0.N, win0_2.index t = ![q0.val, q1.val, 0])

/-- What grid point t writes back is block t of the weigh-then-divide form of the argument arrays. -/
theorem flushed_eq (c : Dev nD) (t : Fin cfg0.N) :
    (dats m 0 c).flushed 2 t
      = ((cfg0.win 2).blk t).view.read (Elt Ideal) (kerArr (V m c main_arg0) (V m c main_arg1)) := by
  rw [Cert.KernelIdeal.Value.flushed2]
  unfold out0_2
  rw [View.canon_unit_zero zero_offsets]
  simp only [View.ld_unit_zero (S := S1x1024x4096) zero_offsets, View.ld_unit_zero (S := S1x4096x64) zero_offsets]
  obtain ⟨e0, e1, e2, e3, e4, e5, e6, e7, e8⟩ := index_facts t
  funext j
  have hj0 : (j 0).val < 1 := (j 0).isLt
  have hj1 : (j 1).val < 1024 := (j 1).isLt
  have hj2 : (j 2).val < 64 := (j 2).isLt
  show k0_pay1 (F := Ideal) (iblk m c 0 t) (iblk m c 1 t) (ix3 ⟨(j 0).val, hj0⟩ ⟨(j 1).val, hj1⟩ ⟨(j 2).val, hj2⟩)
    = kerArr (V m c main_arg0) (V m c main_arg1) (((cfg0.win 2).blk t).view.emb j)
  refine (block_value (iblk m c 0 t) (iblk m c 1 t) (V m c main_arg0) (V m c main_arg1)
    ⟨win0_2.index t (0 : Fin 3), by omega⟩ ⟨win0_2.index t (1 : Fin 3), by omega⟩ ?_ ?_ _ _ _).trans ?_
  · intro p k
    show V m c main_arg1 (((cfg0.win 0).blk t).view.emb (ix3 (0 : Fin 1) p k)) = V m c main_arg1 _
    refine congrArg _ (funext fun a => Fin.ext ?_)
    match a with
    | ⟨0, _⟩ => show win0_0.index t (0 : Fin 3) * 1 + 1 * 0 = win0_2.index t (0 : Fin 3); omega
    | ⟨1, _⟩ => show win0_0.index t (1 : Fin 3) * 1024 + 1 * p.val = win0_2.index t (1 : Fin 3) * 1024 + p.val; omega
    | ⟨2, _⟩ => show win0_0.index t (2 : Fin 3) * 4096 + 1 * k.val = k.val; omega
  · intro k d
    show V m c main_arg0 (((cfg0.win 1).blk t).view.emb (ix3 (0 : Fin 1) k d)) = V m c main_arg0 _
    refine congrArg _ (funext fun a => Fin.ext ?_)
    match a with
    | ⟨0, _⟩ => show win0_1.index t (0 : Fin 3) * 1 + 1 * 0 = win0_2.index t (0 : Fin 3); omega
    | ⟨1, _⟩ => show win0_1.index t (1 : Fin 3) * 4096 + 1 * k.val = k.val; omega
    | ⟨2, _⟩ => show win0_1.index t (2 : Fin 3) * 64 + 1 * d.val = d.val; omega
  · unfold kerArr
    show kerForm _ _ _ _ _ = kerForm _ _ ⟨win0_2.index t (0 : Fin 3) * 1 + 1 * (j 0).val, _⟩
      ⟨win0_2.index t (1 : Fin 3) * 1024 + 1 * (j 1).val, _⟩ ⟨win0_2.index t (2 : Fin 3) * 64 + 1 * (j 2).val, _⟩
    congr 1
    · exact Fin.ext (by show win0_2.index t (0 : Fin 3) = win0_2.index t (0 : Fin 3) * 1 + 1 * (j 0).val; omega)
    · exact Fin.ext (by show win0_2.index t (1 : Fin 3) * 1024 + (j 1).val = win0_2.index t (1 : Fin 3) * 1024 + 1 * (j 1).val; omega)
    · exact Fin.ext (by show (j 2).val = win0_2.index t (2 : Fin 3) * 64 + 1 * (j 2).val; omega)

/-- An index of the output array is in point t's block iff each coordinate is in the block's range on its axis. -/
theorem mem_block (t : Fin cfg0.N) (i : S4x4096x64.Idx) :
    i ∈ ((cfg0.win 2).blk t).view.set ↔ ∀ a : Fin 3, win0_2.index t a * S1x1024x64.size a ≤ (i a).val
      ∧ (i a).val < win0_2.index t a * S1x1024x64.size a + S1x1024x64.size a := by
  show i ∈ ((View.whole main_v0).slice (win0_2.rect t)).set ↔ _
  rw [View.set_slice_whole, Rect.mem_set_unit]
  exact Iff.rfl

/-- The sixteen blocks cover the output: row r of batch b is in the block of the point (b, r / 1024). -/
theorem blocks_cover (i : S4x4096x64.Idx) :
    ∃ t : Fin cfg0.N, (cfg0.win 2).flush t = true ∧ i ∈ ((cfg0.win 2).blk t).view.set := by
  have hi0 : (i 0).val < 4 := (i 0).isLt
  have hi1 : (i 1).val < 4096 := (i 1).isLt
  have hi2 : (i 2).val < 64 := (i 2).isLt
  obtain ⟨t, ht⟩ := index_onto ⟨(i 0).val, hi0⟩ ⟨(i 1).val / 1024, by omega⟩
  have q0 : win0_2.index t (0 : Fin 3) = (i 0).val := congrFun ht 0
  have q1 : win0_2.index t (1 : Fin 3) = (i 1).val / 1024 := congrFun ht 1
  have q2 : win0_2.index t (2 : Fin 3) = 0 := congrFun ht 2
  refine ⟨t, flush0_2 t, ?_⟩
  rw [mem_block]
  intro a
  match a with
  | ⟨0, _⟩ =>
    show win0_2.index t (0 : Fin 3) * 1 ≤ (i 0).val ∧ (i 0).val < win0_2.index t (0 : Fin 3) * 1 + 1
    omega
  | ⟨1, _⟩ =>
    show win0_2.index t (1 : Fin 3) * 1024 ≤ (i 1).val ∧ (i 1).val < win0_2.index t (1 : Fin 3) * 1024 + 1024
    omega
  | ⟨2, _⟩ =>
    show win0_2.index t (2 : Fin 3) * 64 ≤ (i 2).val ∧ (i 2).val < win0_2.index t (2 : Fin 3) * 64 + 64
    omega

/-- After the run the output array is the weigh-then-divide form of the two argument arrays. -/
theorem output_eq (c : Dev nD) :
    (dats m 0 c).arrAt 2 cfg0.N
      = kerArr (m ((c : Thread nD τ).loc main_arg0)) (m ((c : Thread nD τ).loc main_arg1)) :=
  (dats m 0 c).arrAt_eq_of_cover 2 _ (fun t _ => flushed_eq m c t) blocks_cover

/-- The kernel's run, read: every weakly fair execution ends with the output array at that form and the arguments
    unchanged. -/
theorem kernel_run : θ_run defs (onTc (τ := τ) (main (F := Ideal))) ⟨m, fun _ => 0, ρ⟩ fun r => ∀ c : Dev nD,
      r.2.mem ((c : Thread nD τ).loc main_v0)
        = kerArr (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (output_eq m c), (h c).2⟩)
    (Cert.KernelIdeal.Value.run_blocks m ρ)

end Cert.Assoc

end
-- ==== Proof.RefValue.lean ====
/-
  The reference, read at an index.

  Its result at (b, m, d) is the sum over n of ((a[b, m, n] + ε) / s[b, m]) · f[b, n, d], where the divisor s[b, m] is the
  sum over n of a[b, m, n] + ε, started from zero: the two broadcasts between the row sum and the quotient only carry
  s[b, m] to every n, and the final contraction over n is the plain sum of products.
-/
import proofs.«136733_j53291954209361_2_alg».proof.Proof.Gen.ReferenceIdeal.Read
import proofs.«136733_j53291954209361_2_alg».proof.Proof.Spec

noncomputable section

namespace Cert.Assoc

open Idealize.ShloMosaic Idealize.ShloMosaic.ValueIdx Cert.ReferenceIdeal Cert.ReferenceIdeal.Gen Cert.ReferenceIdeal.Read

/-- The reference's row sum at (b, m) is the row's divisor. -/
theorem ref_rowSum_apply (x1 : SA.Idx → EReal) (i : S4x4096.Idx) :
    val_main_v2 (F := Ideal) x1 i = rowDivisor x1 ⟨(i 0).val, (i 0).isLt⟩ ⟨(i 1).val, (i 1).isLt⟩ := by
  rw [val_main_v2_apply]
  unfold rowDivisor
  refine congrArg₂ (· + ·) Ideal.ofBits_zero_f32 (Finset.sum_congr rfl fun k _ => ?_)
  rw [val_main_v1_apply, val_main_v0_apply, val_main_cst_apply]
  show x1 (idx_main_v2 i k) + eps = x1 (ix3 (⟨(i 0).val, (i 0).isLt⟩ : Fin 4) (⟨(i 1).val, (i 1).isLt⟩ : Fin 4096) k) + eps
  exact congrArg (x1 · + eps) (funext fun a => Fin.ext (by
    match a with
    | ⟨0, _⟩ => rfl
    | ⟨1, _⟩ => rfl
    | ⟨2, _⟩ => rfl))

/-- The reference's result, at every index, is the normalise-then-weigh form of the two argument arrays. -/
theorem ref_result_eq (x0 : SF.Idx → EReal) (x1 : SA.Idx → EReal) :
    val_main_v6 (F := Ideal) x0 x1 = refArr x0 x1 := by
  funext i
  rw [val_main_v6_apply]
  unfold refArr refForm
  refine Finset.sum_congr rfl fun k _ => ?_
  have e1 : lidx_main_v6 i k = ix3 (⟨(i 0).val, (i 0).isLt⟩ : Fin 4) (⟨(i 1).val, (i 1).isLt⟩ : Fin 4096) k :=
    funext fun a => Fin.ext (by
      match a with
      | ⟨0, _⟩ => rfl
      | ⟨1, _⟩ => rfl
      | ⟨2, _⟩ => rfl)
  have e2 : ridx_main_v6 i k = ix3 (⟨(i 0).val, (i 0).isLt⟩ : Fin 4) k (⟨(i 2).val, (i 2).isLt⟩ : Fin 64) :=
    funext fun a => Fin.ext (by
      match a with
      | ⟨0, _⟩ => rfl
      | ⟨1, _⟩ => rfl
      | ⟨2, _⟩ => rfl)
  rw [e1, e2, val_main_v5_apply, val_main_v1_apply, val_main_v0_apply, val_main_cst_apply, val_main_v4_apply,
    val_main_v3_apply, ref_rowSum_apply]
  rfl

end Cert.Assoc

end
-- ==== Proof.PreFacts.lean ====
/-
  What the precondition says of the two argument arrays at the extended reals: every feature and every weight is a real
  number (its absolute value is below +∞), and in every row the sum of the weights plus ε — the reference's divisor — is
  not zero.
-/
import proofs.«136733_j53291954209361_2_alg».proof.Pre_finite_inputs
import Idealize.ShloMosaic.Lib.ReduceAll
import Idealize.ShloMosaic.PureOps.Ideal.Laws
import proofs.«136733_j53291954209361_2_alg».proof.Proof.Spec

noncomputable section

namespace Cert.Assoc

open Idealize.ShloMosaic Idealize.ShloMosaic.ValueIdx

/-- The shape with no axis has one index. -/
instance : Subsingleton (⟨0, ![]⟩ : Shape).Idx := ⟨fun _ _ => funext fun d => d.elim0⟩

/-- The word 0x7F800000 denotes +∞. -/
theorem ofBits_inf : Ideal.ofBits .f32 0x7F800000#32 = ⊤ := by
  simp [Ideal.ofBits, Ideal.ieee]

/-- An extended real whose absolute value compares below +∞ is a real number. -/
theorem real_of_abs_lt_inf (x : EReal)
    (h : Ideal.cmp .olt (max x (-x)) (Ideal.ofBits .f32 0x7F800000#32) = 1#1) : ∃ r : ℝ, x = (r : EReal) := by
  rw [ofBits_inf] at h
  induction x using EReal.rec
  · exfalso; revert h; simp [Ideal.cmp]
  · exact ⟨_, rfl⟩
  · exfalso; revert h; simp [Ideal.cmp]

/-- A comparison "not equal" that holds says the two extended reals differ. -/
theorem ne_of_cmp_une (x y : EReal) (h : Ideal.cmp .une x y = 1#1) : x ≠ y := by
  intro e
  revert h
  simp [Ideal.cmp, e]

variable [hP : Cert.Pre_finite_inputs.Facts]

/-- The precondition, read: both arrays hold reals and no row's divisor is zero. -/
theorem pre_facts (x0 : SF.Idx → EReal) (x1 : SA.Idx → EReal)
    (h : Cert.Pre_finite_inputs.fn (F := Ideal) x0 x1 = fun _ => 1#1) :
    (∀ i, ∃ r : ℝ, x0 i = (r : EReal)) ∧ (∀ i, ∃ r : ℝ, x1 i = (r : EReal))
      ∧ ∀ (b : Fin 4) (m : Fin 4096), rowDivisor x1 b m ≠ 0 := by
  have h0 := congrFun h ix0
  dsimp only [Cert.Pre_finite_inputs.fn] at h0
  obtain ⟨h01, h2⟩ := IntOp.andi_eq_one.1 h0
  obtain ⟨h0', h1⟩ := IntOp.andi_eq_one.1 h01
  refine ⟨fun i => ?_, fun i => ?_, fun b m => ?_⟩
  · exact real_of_abs_lt_inf _ (Host.reduce_andi_all _ _ _ _ _ h0' i)
  · exact real_of_abs_lt_inf _ (Host.reduce_andi_all _ _ _ _ _ h1 i)
  · have e := Host.reduce_andi_all _ _ _ _ _ h2 (ix2 b m)
    have hne := ne_of_cmp_une _ _ e
    intro hz
    refine hne (Eq.trans ?_ (Eq.trans hz ?_))
    · simp only [Host.reduceAdd, Ideal.hostReduceAdd_def]
      rw [Ideal.hostReduceAdd_single Cert.Pre_finite_inputs.Facts.reducesTo_S4x4096x4096_S4x4096_d2 (by decide)]
      unfold rowDivisor
      refine congrArg₂ (· + ·) Ideal.ofBits_zero_f32 (Finset.sum_congr rfl fun k _ => ?_)
      show x1 _ + eps = x1 (ix3 b m k) + eps
      exact congrArg (x1 · + eps) (funext fun a => Fin.ext (by
        match a with
        | ⟨0, _⟩ => rfl
        | ⟨1, _⟩ => rfl
        | ⟨2, _⟩ => rfl))
    · exact Ideal.ofBits_zero_f32.symm

end Cert.Assoc

end
-- ==== Proof.lean ====
/-
  Normalised weighted aggregation: out[b, m, d] = Σₙ w[b, m, n] · f[b, n, d], where the weights of each row are
  w[b, m, n] = (a[b, m, n] + ε) / Σₙ' (a[b, m, n'] + ε), over a : 4 × 4096 × 4096 and f : 4 × 4096 × 64.

  The reference normalises every weight and then contracts over n.  The kernel never forms a + ε: per block of 1024 rows it
  takes the product of the raw weights with the features, adds ε times the features' column sum, and divides once by the
  raw row sum plus 4096 · ε (one literal, the same significand as ε twelve binades higher).  On the extended reals, for
  real entries and a nonzero divisor s = Σₙ (a + ε),
      Σₙ ((aₙ + ε) / s) · fₙ  =  (Σₙ aₙ fₙ + ε Σₙ fₙ) / (Σₙ aₙ + 4096 ε),
  since dividing by a nonzero real is multiplying by its reciprocal, the product distributes over the finite sum, and
  Σₙ (aₙ + ε) = Σₙ aₙ + 4096 ε.  The precondition supplies exactly the two hypotheses: every entry finite, and no row's
  divisor zero (where it is zero the reference itself divides by zero, and the two programs' junk values differ).

  The pieces: the law over the reals (Law), the two literals (Consts), both programs' results as functions of the argument
  arrays and their agreement (Spec), the kernel body's arithmetic at an entry (Layout, KerPayload), the sixteen blocks
  assembled into the whole output array (Blocks), the reference read at an index (RefValue), and the precondition read
  (PreFacts).  The three frame claims are the generated frame runs; nothing was rewritten between the kernel and its
  idealization, so that claim is trivial.
-/
import proofs.«136733_j53291954209361_2_alg».proof.Defs
import proofs.«136733_j53291954209361_2_alg».proof.Proof.Gen.Kernel
import proofs.«136733_j53291954209361_2_alg».proof.Proof.Gen.Kernel.Skeleton
import proofs.«136733_j53291954209361_2_alg».proof.Proof.Gen.Kernel.Launch
import proofs.«136733_j53291954209361_2_alg».proof.Proof.Gen.Kernel.Points
import proofs.«136733_j53291954209361_2_alg».proof.Proof.Gen.Kernel.Frame
import proofs.«136733_j53291954209361_2_alg».proof.Proof.Gen.KernelIdeal
import proofs.«136733_j53291954209361_2_alg».proof.Proof.Gen.KernelIdeal.Skeleton
import proofs.«136733_j53291954209361_2_alg».proof.Proof.Gen.KernelIdeal.Launch
import proofs.«136733_j53291954209361_2_alg».proof.Proof.Gen.KernelIdeal.Points
import proofs.«136733_j53291954209361_2_alg».proof.Proof.Gen.KernelIdeal.Frame
import proofs.«136733_j53291954209361_2_alg».proof.Proof.Gen.ReferenceIdeal
import proofs.«136733_j53291954209361_2_alg».proof.Proof.Gen.Pre_finite_inputs
import proofs.«136733_j53291954209361_2_alg».proof.Proof.Gen.KernelIdeal.Value
import proofs.«136733_j53291954209361_2_alg».proof.Proof.Gen.ReferenceIdeal.Run
import proofs.«136733_j53291954209361_2_alg».proof.Proof.Gen.ReferenceIdeal.Read
import proofs.«136733_j53291954209361_2_alg».proof.Proof.Blocks
import proofs.«136733_j53291954209361_2_alg».proof.Proof.RefValue
import proofs.«136733_j53291954209361_2_alg».proof.Proof.PreFacts
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_kernel : Cert.frame_Kernel := fun m ρ _ => Cert.Kernel.Gen.frame m ρ

/-- So does the kernel read at the extended reals. -/
theorem frame_kernelIdeal : Cert.frame_KernelIdeal := fun m ρ _ => Cert.KernelIdeal.Gen.frame m ρ

/-- The reference is a straight line of host operations: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation of the kernel was rewritten for the reading at the extended reals. -/
theorem preserves : Cert.preserves_Kernel_KernelIdeal := trivial

/-- Both programs end with the same array: the kernel at the weigh-then-divide form of its arguments, the reference at the
    normalise-then-weigh form of the same arguments, equal under the precondition. -/
theorem algebraic : Cert.algebraic_KernelIdeal_ReferenceIdeal := by
  intro m ρ m' ρ' hpre hagree
  refine ⟨fun c => Cert.Assoc.kerArr (m ((c : Thread Cert.KernelIdeal.nD Cert.KernelIdeal.τ).loc Cert.KernelIdeal.main_arg0))
      (m ((c : Thread Cert.KernelIdeal.nD Cert.KernelIdeal.τ).loc Cert.KernelIdeal.main_arg1)),
    Cert.Assoc.kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v6_eq, Cert.Assoc.ref_result_eq, (hagree c).1, (hagree c).2]
  obtain ⟨hF, hA, hs⟩ := Cert.Assoc.pre_facts _ _ (hpre c)
  exact Cert.Assoc.refArr_eq_kerArr _ _ hF hA hs

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
